-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100000 : Shape := ⟨2, ![16, 100000]⟩
abbrev S3200000 : Shape := ⟨1, ![3200000]⟩
abbrev S100000 : Shape := ⟨1, ![100000]⟩
abbrev S_ : Shape := ⟨0, ![]⟩

class Facts : Prop where
  bcast_S_S16x100000 : S_.BroadcastsInDim S16x100000 (![] : Fin 0 → Fin S16x100000.rank)
  reducesTo_S16x100000_S_d0_1 : S16x100000.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg6 : FVec F S3200000 .f32) (main_arg7 : FVec F S100000 .f32) (main_arg8 : FVec F S100000 .f32) (main_v13 : IVec S_ 1) (main_v16 : IVec S16x100000 1) : IVec S_ 1 :=
  let main_c_5 : IVec S_ 1 := constantI S_ 1 1#1
  let main_v17 : IVec S_ 1 := (fun x v => Host.reduce IntOp.andi x v reducesTo_S16x100000_S_d0_1 h_S_) main_v16 main_c_5
  let main_v18 : IVec S_ 1 := andi main_v13 main_v17
  let main_v19 : FVec F S3200000 .f32 := Host.absf main_arg6
  let main_cst_6 : FVec F S_ .f32 := constant S_ .f32 0x7F800000#32
  let main_v20 : FVec F S3200000 .f32 := broadcastInDim S3200000 ![] bcast_S_S3200000 main_cst_6
  let main_v21 : IVec S3200000 1 := cmpf .olt main_v19 main_v20
  let main_c_7 : IVec S_ 1 := constantI S_ 1 1#1
  let main_v22 : IVec S_ 1 := (fun x v => Host.reduce IntOp.andi x v reducesTo_S3200000_S_d0 h_S_) main_v21 main_c_7
  let main_v23 : IVec S_ 1 := andi main_v18 main_v22
  let main_v24 : FVec F S100000 .f32 := Host.absf main_arg7
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  let main_v29 : FVec F S100000 .f32 := Host.absf main_arg8
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  main_v33

def fn {F : FTy → Type} [FloatOps F] (main_arg0 : FVec F S16x100000 .f32) (main_arg1 : FVec F S16x100000 .f32) (main_arg2 : FVec F S16x100000 .f32) (main_arg3 : FVec F S16x100000 .f32) (main_arg4 : IVec S3200000 32) (main_arg5 : IVec S3200000 32) (main_arg6 : FVec F S3200000 .f32) (main_arg7 : FVec F S100000 .f32) (main_arg8 : FVec F S100000 .f32) : IVec S_ 1 :=
  let main_v0 : FVec F S16x100000 .f32 := Host.absf main_arg0
  let main_cst : FVec F S_ .f32 := constant S_ .f32 0x7F800000#32
  let main_v1 : FVec F S16x100000 .f32 := broadcastInDim S16x100000 ![] bcast_S_S16x100000 main_cst
  let main_v2 : IVec S16x100000 1 := cmpf .olt main_v0 main_v1
  let main_c : IVec S_ 1 := constantI S_ 1 1#1
  let main_v3 : IVec S_ 1 := (fun x v => Host.reduce IntOp.andi x v reducesTo_S16x100000_S_d0_1 h_S_) main_v2 main_c
  let main_v4 : FVec F S16x100000 .f32 := Host.absf main_arg1
  let main_cst_0 : FVec F S_ .f32 := constant S_ .f32 0x7F800000#32
  let main_v5 : FVec F S16x100000 .f32 := broadcastInDim S16x100000 ![] bcast_S_S16x100000 main_cst_0
  let main_v6 : IVec S16x100000 1 := cmpf .olt main_v4 main_v5
  let main_c_1 : IVec S_ 1 := constantI S_ 1 1#1
  let main_v7 : IVec S_ 1 := (fun x v => Host.reduce IntOp.andi x v reducesTo_S16x100000_S_d0_1 h_S_) main_v6 main_c_1
  let main_v8 : IVec S_ 1 := andi main_v3 main_v7
  let main_v9 : FVec F S16x100000 .f32 := Host.absf main_arg2
  let main_cst_2 : FVec F S_ .f32 := constant S_ .f32 0x7F800000#32
  let main_v10 : FVec F S16x100000 .f32 := broadcastInDim S16x100000 ![] bcast_S_S16x100000 main_cst_2
  let main_v11 : IVec S16x100000 1 := cmpf .olt main_v9 main_v10
  let main_c_3 : IVec S_ 1 := constantI S_ 1 1#1
  let main_v12 : IVec S_ 1 := (fun x v => Host.reduce IntOp.andi x v reducesTo_S16x100000_S_d0_1 h_S_) main_v11 main_c_3
  let main_v13 : IVec S_ 1 := andi main_v8 main_v12
  let main_v14 : FVec F S16x100000 .f32 := Host.absf main_arg3
  let main_cst_4 : FVec F S_ .f32 := constant S_ .f32 0x7F800000#32
  let main_v15 : FVec F S16x100000 .f32 := broadcastInDim S16x100000 ![] bcast_S_S16x100000 main_cst_4
  let main_v16 : IVec S16x100000 1 := cmpf .olt main_v14 main_v15
  fn_part1 (F := F) main_arg6 main_arg7 main_arg8 main_v13 main_v16
-- ==== Kernel.lean ====
abbrev S16x100000 : Shape := ⟨2, ![16, 100000]⟩
abbrev S3200000 : Shape := ⟨1, ![3200000]⟩
abbrev S100000 : Shape := ⟨1, ![100000]⟩
abbrev S_ : Shape := ⟨0, ![]⟩
abbrev S3200000x1 : Shape := ⟨2, ![3200000, 1]⟩
abbrev S16x3200000 : Shape := ⟨2, ![16, 3200000]⟩
abbrev S1x3200000 : Shape := ⟨2, ![1, 3200000]⟩
abbrev S16x32000 : Shape := ⟨2, ![16, 32000]⟩
abbrev S1x32000 : Shape := ⟨2, ![1, 32000]⟩
abbrev S16x100096 : Shape := ⟨2, ![16, 100096]⟩
abbrev S100096 : Shape := ⟨1, ![100096]⟩
abbrev S1x100096 : Shape := ⟨2, ![1, 100096]⟩
abbrev S16x5888 : Shape := ⟨2, ![16, 5888]⟩
abbrev S1x5888 : Shape := ⟨2, ![1, 5888]⟩

abbrev nBuf : Space → Nat
  | .hbm => 58
  | .vmem => 20
  | .smem => 0
  | _ => 0

abbrev bufTy : (tb : Table) → Fin (tcTables nBuf tb) → BufTy
  | .hbm, ⟨0, _⟩ => ⟨S16x100000, .f32⟩
  | .hbm, ⟨1, _⟩ => ⟨S16x100000, .f32⟩
  | .hbm, ⟨2, _⟩ => ⟨S16x100000, .f32⟩
  | .hbm, ⟨3, _⟩ => ⟨S16x100000, .f32⟩
  | .hbm, ⟨4, _⟩ => ⟨S3200000, .i32⟩
  | .hbm, ⟨5, _⟩ => ⟨S3200000, .i32⟩
  | .hbm, ⟨6, _⟩ => ⟨S3200000, .f32⟩
  | .hbm, ⟨7, _⟩ => ⟨S100000, .f32⟩
  | .hbm, ⟨8, _⟩ => ⟨S100000, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S16x3200000, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S16x3200000, .f32⟩
  | .hbm, ⟨27, _⟩ => ⟨S1x3200000, .f32⟩
  | .hbm, ⟨28, _⟩ => ⟨S16x3200000, .f32⟩
  | .hbm, ⟨29, _⟩ => ⟨S_, .f32⟩
  | .hbm, ⟨30, _⟩ => ⟨S16x100000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S16x100000, .f32⟩
  | .hbm, ⟨40, _⟩ => ⟨S_, .i32⟩
  | .hbm, ⟨41, _⟩ => ⟨S_, .f32⟩
  | .hbm, ⟨42, _⟩ => ⟨S16x100096, .f32⟩
  | .hbm, ⟨43, _⟩ => ⟨S_, .i32⟩
  | .hbm, ⟨44, _⟩ => ⟨S_, .f32⟩
  | .hbm, ⟨45, _⟩ => ⟨S16x100096, .f32⟩
  | .hbm, ⟨46, _⟩ => ⟨S_, .i32⟩
  | .hbm, ⟨47, _⟩ => ⟨S_, .f32⟩
  | .hbm, ⟨48, _⟩ => ⟨S16x100096, .f32⟩
  | .hbm, ⟨49, _⟩ => ⟨S_, .i32⟩
  | .hbm, ⟨50, _⟩ => ⟨S_, .f32⟩
  | .hbm, ⟨51, _⟩ => ⟨S16x100096, .f32⟩
  | .hbm, ⟨52, _⟩ => ⟨S_, .i32⟩
  | .hbm, ⟨53, _⟩ => ⟨S_, .f32⟩
  | .hbm, ⟨54, _⟩ => ⟨S100096, .f32⟩
  | .hbm, ⟨55, _⟩ => ⟨S1x100096, .f32⟩
  | .hbm, ⟨56, _⟩ => ⟨S16x100096, .f32⟩
  | .hbm, ⟨57, _⟩ => ⟨S16x100000, .f32⟩
  | .local _ .vmem, ⟨0, _⟩ => ⟨S16x32000, .f32⟩
  | .local _ .vmem, ⟨1, _⟩ => ⟨S16x32000, .f32⟩
  | .local _ .vmem, ⟨2, _⟩ => ⟨S16x32000, .f32⟩
  | .local _ .vmem, ⟨3, _⟩ => ⟨S16x32000, .f32⟩
  | .local _ .vmem, ⟨4, _⟩ => ⟨S1x32000, .f32⟩
  | .local _ .vmem, ⟨5, _⟩ => ⟨S1x32000, .f32⟩
  | .local _ .vmem, ⟨6, _⟩ => ⟨S16x32000, .f32⟩
  | .local _ .vmem, ⟨7, _⟩ => ⟨S16x32000, .f32⟩
  | .local _ .vmem, ⟨8, _⟩ => ⟨S16x5888, .f32⟩
  | .local _ .vmem, ⟨9, _⟩ => ⟨S16x5888, .f32⟩
  | .local _ .vmem, ⟨10, _⟩ => ⟨S16x5888, .f32⟩
  | .local _ .vmem, ⟨11, _⟩ => ⟨S16x5888, .f32⟩
  | .local _ .vmem, ⟨12, _⟩ => ⟨S16x5888, .f32⟩
  | .local _ .vmem, ⟨13, _⟩ => ⟨S16x5888, .f32⟩
  | .local _ .vmem, ⟨14, _⟩ => ⟨S16x5888, .f32⟩
  | .local _ .vmem, ⟨15, _⟩ => ⟨S16x5888, .f32⟩
  | .local _ .vmem, ⟨16, _⟩ => ⟨S1x5888, .f32⟩
  | .local _ .vmem, ⟨17, _⟩ => ⟨S1x5888, .f32⟩
  | .local _ .vmem, ⟨18, _⟩ => ⟨S16x5888, .f32⟩
  | .local _ .vmem, ⟨19, _⟩ => ⟨S16x5888, .f32⟩
  | _, _ => ⟨S16x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_call0_v0 : Ref sig .tc := ⟨.hbm, 41, rfl⟩
abbrev main_v24 : Ref sig .tc := ⟨.hbm, 42, rfl⟩
abbrev main_c_6 : Ref sig .tc := ⟨.hbm, 43, rfl⟩
abbrev main_call1_v0 : Ref sig .tc := ⟨.hbm, 44, rfl⟩
abbrev main_v25 : Ref sig .tc := ⟨.hbm, 45, rfl⟩
abbrev main_c_7 : Ref sig .tc := ⟨.hbm, 46, rfl⟩
abbrev main_call2_v0 : Ref sig .tc := ⟨.hbm, 47, rfl⟩
abbrev main_v26 : Ref sig .tc := ⟨.hbm, 48, rfl⟩
abbrev main_c_8 : Ref sig .tc := ⟨.hbm, 49, rfl⟩
abbrev main_call3_v0 : Ref sig .tc := ⟨.hbm, 50, rfl⟩
abbrev main_v27 : Ref sig .tc := ⟨.hbm, 51, rfl⟩
abbrev main_c_9 : Ref sig .tc := ⟨.hbm, 52, rfl⟩
abbrev main_call4_v0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x32000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x5888 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x5888 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x5888 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x5888 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x5888 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x5888 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S1x3200000 : S3200000.ShapeCasts S1x3200000
  inb_S16x32000_S16x32000_0_0 : ∀ a, (![0, 0] : Fin 2 → Nat) a + S16x32000.size a ≤ S16x32000.size a
  h_S16x32000 : 0 < S16x32000.numel
  shapeCasts_S16x32000_S16x32000 : S16x32000.ShapeCasts S16x32000
  inb_S1x32000_S1x32000_0_0 : ∀ a, (![0, 0] : Fin 2 → Nat) a + S1x32000.size a ≤ S1x32000.size a
  h_S1x32000 : 0 < S1x32000.numel
  shapeCasts_S1x32000_S1x32000 : S1x32000.ShapeCasts S1x32000
  broadcasts_S1x32000_S16x32000 : S1x32000.Broadcasts S16x32000
  bcast_S_S16x100000 : S_.BroadcastsInDim S16x100000 (![] : Fin 0 → Fin S16x100000.rank)
  pads_S16x100000_S16x100096_000_0960 : S16x100000.Pads (![0, 0] : Fin 2 → Nat) ![0, 96] ![0, 0] S16x100096
  h_S_ : 0 < S_.numel
  pads_S100000_S100096_0960 : S100000.Pads (![0] : Fin 1 → Nat) ![96] ![0] S100096
  shapeCasts_S100096_S1x100096 : S100096.ShapeCasts S1x100096
  inb_S16x5888_S16x5888_0_0 : ∀ a, (![0, 0] : Fin 2 → Nat) a + S16x5888.size a ≤ S16x5888.size a
  h_S16x5888 : 0 < S16x5888.numel
  shapeCasts_S16x5888_S16x5888 : S16x5888.ShapeCasts S16x5888
  inb_S1x5888_S1x5888_0_0 : ∀ a, (![0, 0] : Fin 2 → Nat) a + S1x5888.size a ≤ S1x5888.size a
  h_S1x5888 : 0 < S1x5888.numel
  shapeCasts_S1x5888_S1x5888 : S1x5888.ShapeCasts S1x5888
  broadcasts_S1x5888_S16x5888 : S1x5888.Broadcasts S16x5888
  slices_S16x100096_S16x100000_0_0 : S16x100096.Slices ![0, 0] S16x100000
  gather_S16x100000_S3200000x1_S16x3200000_0_1_n_n_1_1_161_wf : GatherDims.WF S16x100000 S3200000x1 S16x3200000 [0] [1] [] [1] [] 1 ![16, 1]
  scatter_S16x100000_S3200000x1_S16x3200000_0_1_1_1_wf : ScatterDims.WF S16x100000 S3200000x1 S16x3200000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32000.size a ≤ S16x3200000.size a
  hwx0_0 : ∀ i : grid0.Coords, EltTy.bits .f32 = 32 ∨ (Rect.block (s := S16x3200000) S16x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x32000.size a ≤ S16x3200000.size a
  hwx0_1 : ∀ i : grid0.Coords, EltTy.bits .f32 = 32 ∨ (Rect.block (s := S16x3200000) S16x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32000.size a ≤ S1x3200000.size a
  hwx0_2 : ∀ i : grid0.Coords, EltTy.bits .f32 = 32 ∨ (Rect.block (s := S1x3200000) S1x32000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x32000.size a ≤ S16x3200000.size a
  hwx0_3 : ∀ i : grid0.Coords, EltTy.bits .f32 = 32 ∨ (Rect.block (s := S16x3200000) S16x32000.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x5888.size a ≤ S16x100096.size a
  hwx1_0 : ∀ i : grid1.Coords, EltTy.bits .f32 = 32 ∨ (Rect.block (s := S16x100096) S16x5888.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x5888.size a ≤ S16x100096.size a
  hwx1_1 : ∀ i : grid1.Coords, EltTy.bits .f32 = 32 ∨ (Rect.block (s := S16x100096) S16x5888.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x5888.size a ≤ S16x100096.size a
  hwx1_2 : ∀ i : grid1.Coords, EltTy.bits .f32 = 32 ∨ (Rect.block (s := S16x100096) S16x5888.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x5888.size a ≤ S16x100096.size a
  hwx1_3 : ∀ i : grid1.Coords, EltTy.bits .f32 = 32 ∨ (Rect.block (s := S16x100096) S16x5888.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x5888.size a ≤ S1x100096.size a
  hwx1_4 : ∀ i : grid1.Coords, EltTy.bits .f32 = 32 ∨ (Rect.block (s := S1x100096) S1x5888.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16x5888.size a ≤ S16x100096.size a
  hwx1_5 : ∀ i : grid1.Coords, EltTy.bits .f32 = 32 ∨ (Rect.block (s := S16x100096) S16x5888.size (cc1_transform_5 i) (hinb1_5 i)).WholeWords (EltTy.packing .f32)

variable [Facts₀]

def gather_S16x100000_S3200000x1_S16x3200000_0_1_n_n_1_1_161 : GatherDims S16x100000 S3200000x1 S16x3200000 where
  offsetDims := [0]
  collapsedSliceDims := [1]
  operandBatchingDims := []
  startIndicesBatchingDims := []
  startIndexMap := [1]
  indexVectorDim := 1
  sliceSizes := ![16, 1]
  wf := gather_S16x100000_S3200000x1_S16x3200000_0_1_n_n_1_1_161_wf
def scatter_S16x100000_S3200000x1_S16x3200000_0_1_1_1 : ScatterDims S16x100000 S3200000x1 S16x3200000 where
  updateWindowDims := [0]
  insertedWindowDims := [1]
  scatterDimsToOperandDims := [1]
  indexVectorDim := 1
  wf := scatter_S16x100000_S3200000x1_S16x3200000_0_1_1_1_wf

abbrev win0_0 : Pipeline.Window sig grid0 :=
  Pipeline.Window.ofSpec (Memref.whole main_v6) S16x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S16x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x32000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S16x32000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S16x5888.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S16x5888.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S16x5888.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S16x5888.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x5888.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30) S16x5888.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x100000 : Shape := ⟨2, ![16, 100000]⟩
abbrev S3200000 : Shape := ⟨1, ![3200000]⟩
abbrev S100000 : Shape := ⟨1, ![100000]⟩
abbrev S_ : Shape := ⟨0, ![]⟩
abbrev S3200000x1 : Shape := ⟨2, ![3200000, 1]⟩
abbrev S16x3200000 : Shape := ⟨2, ![16, 3200000]⟩
abbrev S1x3200000 : Shape := ⟨2, ![1, 3200000]⟩
abbrev S1x100000 : Shape := ⟨2, ![1, 100000]⟩

abbrev nBuf : Space → Nat
  | .hbm => 115
  | .vmem => 0
  | .smem => 0
  | _ => 0

abbrev bufTy : (tb : Table) → Fin (tcTables nBuf tb) → BufTy
  | .hbm, ⟨0, _⟩ => ⟨S16x100000, .f32⟩
  | .hbm, ⟨1, _⟩ => ⟨S16x100000, .f32⟩
  | .hbm, ⟨2, _⟩ => ⟨S16x100000, .f32⟩
  | .hbm, ⟨3, _⟩ => ⟨S16x100000, .f32⟩
  | .hbm, ⟨4, _⟩ => ⟨S3200000, .i32⟩
  | .hbm, ⟨5, _⟩ => ⟨S3200000, .i32⟩
  | .hbm, ⟨6, _⟩ => ⟨S3200000, .f32⟩
  | .hbm, ⟨7, _⟩ => ⟨S100000, .f32⟩
  | .hbm, ⟨8, _⟩ => ⟨S100000, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S16x3200000, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S16x3200000, .f32⟩
  | .hbm, ⟨27, _⟩ => ⟨S16x3200000, .i1⟩
  | .hbm, ⟨28, _⟩ => ⟨S_, .f32⟩
  | .hbm, ⟨29, _⟩ => ⟨S_, .f32⟩
  | .hbm, ⟨30, _⟩ => ⟨S16x3200000, .f32⟩
  | .hbm, ⟨31, _⟩ => ⟨S16x3200000, .f32⟩
  | .hbm, ⟨32, _⟩ => ⟨S16x3200000, .f32⟩
  | .hbm, ⟨33, _⟩ => ⟨S1x3200000, .f32⟩
  | .hbm, ⟨34, _⟩ => ⟨S16x3200000, .f32⟩
  | .hbm, ⟨35, _⟩ => ⟨S16x3200000, .f32⟩
  | .hbm, ⟨36, _⟩ => ⟨S16x3200000, .f32⟩
  | .hbm, ⟨37, _⟩ => ⟨S16x3200000, .f32⟩
  | .hbm, ⟨38, _⟩ => ⟨S_, .f32⟩
  | .hbm, ⟨39, _⟩ => ⟨S16x100000, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S16x100000, .f32⟩
  | .hbm, ⟨49, _⟩ => ⟨S16x100000, .f32⟩
  | .hbm, ⟨50, _⟩ => ⟨S16x100000, .f32⟩
  | .hbm, ⟨51, _⟩ => ⟨S16x100000, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16x100000, .f32⟩
  | .hbm, ⟨56, _⟩ => ⟨S16x100000, .f32⟩
  | .hbm, ⟨57, _⟩ => ⟨S_, .f32⟩
  | .hbm, ⟨58, _⟩ => ⟨S16x100000, .f32⟩
  | .hbm, ⟨59, _⟩ => ⟨S16x100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000, .f32⟩
  | .hbm, ⟨64, _⟩ => ⟨S100000, .f32⟩
  | .hbm, ⟨65, _⟩ => ⟨S100000, .i1⟩
  | .hbm, ⟨66, _⟩ => ⟨S100000, .f32⟩
  | .hbm, ⟨67, _⟩ => ⟨S100000, .f32⟩
  | .hbm, ⟨68, _⟩ => ⟨S100000, .f32⟩
  | .hbm, ⟨69, _⟩ => ⟨S100000, .f32⟩
  | .hbm, ⟨70, _⟩ => ⟨S100000, .f32⟩
  | .hbm, ⟨71, _⟩ => ⟨S100000, .f32⟩
  | .hbm, ⟨72, _⟩ => ⟨S100000, .f32⟩
  | .hbm, ⟨73, _⟩ => ⟨S100000, .f32⟩
  | .hbm, ⟨74, _⟩ => ⟨S1x100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S100000, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S100000, .f32⟩
  | .hbm, ⟨87, _⟩ => ⟨S100000, .f32⟩
  | .hbm, ⟨88, _⟩ => ⟨S100000, .f32⟩
  | .hbm, ⟨89, _⟩ => ⟨S1x100000, .f32⟩
  | .hbm, ⟨90, _⟩ => ⟨S16x100000, .f32⟩
  | .hbm, ⟨91, _⟩ => ⟨S16x100000, .f32⟩
  | .hbm, ⟨92, _⟩ => ⟨S_, .f32⟩
  | .hbm, ⟨93, _⟩ => ⟨S16x100000, .f32⟩
  | .hbm, ⟨94, _⟩ => ⟨S16x100000, .f32⟩
  | .hbm, ⟨95, _⟩ => ⟨S_, .f32⟩
  | .hbm, ⟨96, _⟩ => ⟨S16x100000, .f32⟩
  | .hbm, ⟨97, _⟩ => ⟨S16x100000, .f32⟩
  | .hbm, ⟨98, _⟩ => ⟨S_, .f32⟩
  | .hbm, ⟨99, _⟩ => ⟨S16x100000, .f32⟩
  | .hbm, ⟨100, _⟩ => ⟨S16x100000, .f32⟩
  | .hbm, ⟨101, _⟩ => ⟨S16x100000, .i1⟩
  | .hbm, ⟨102, _⟩ => ⟨S16x100000, .f32⟩
  | .hbm, ⟨103, _⟩ => ⟨S16x100000, .i1⟩
  | .hbm, ⟨104, _⟩ => ⟨S16x100000, .f32⟩
  | .hbm, ⟨105, _⟩ => ⟨S16x100000, .f32⟩
  | .hbm, ⟨106, _⟩ => ⟨S_, .f32⟩
  | .hbm, ⟨107, _⟩ => ⟨S16x100000, .f32⟩
  | .hbm, ⟨108, _⟩ => ⟨S16x100000, .f32⟩
  | .hbm, ⟨109, _⟩ => ⟨S16x100000, .i1⟩
  | .hbm, ⟨110, _⟩ => ⟨S16x100000, .i1⟩
  | .hbm, ⟨111, _⟩ => ⟨S16x100000, .f32⟩
  | .hbm, ⟨112, _⟩ => ⟨S16x100000, .f32⟩
  | .hbm, ⟨113, _⟩ => ⟨S16x100000, .f32⟩
  | .hbm, ⟨114, _⟩ => ⟨S16x100000, .f32⟩
  | _, _ => ⟨S16x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v32 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_v33 : Ref sig .tc := ⟨.hbm, 73, rfl⟩
abbrev main_v34 : Ref sig .tc := ⟨.hbm, 74, rfl⟩
abbrev main_call3_cst : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_cst_9 : Ref sig .tc := ⟨.hbm, 92, rfl⟩
abbrev main_v39 : Ref sig .tc := ⟨.hbm, 93, rfl⟩
abbrev main_v40 : Ref sig .tc := ⟨.hbm, 94, rfl⟩
abbrev main_cst_10 : Ref sig .tc := ⟨.hbm, 95, rfl⟩
abbrev main_v41 : Ref sig .tc := ⟨.hbm, 96, rfl⟩
abbrev main_v42 : Ref sig .tc := ⟨.hbm, 97, rfl⟩
abbrev main_cst_11 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_call4_cst : Ref sig .tc := ⟨.hbm, 106, rfl⟩
abbrev main_call4_v0 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S16x3200000 : S_.BroadcastsInDim S16x3200000 (![] : Fin 0 → Fin S16x3200000.rank)
  bcast_S3200000_S1x3200000_1 : S3200000.BroadcastsInDim S1x3200000 (![1] : Fin 1 → Fin S1x3200000.rank)
  bcast_S1x3200000_S16x3200000_0_1 : S1x3200000.BroadcastsInDim S16x3200000 (![0, 1] : Fin 2 → Fin S16x3200000.rank)
  bcast_S_S16x100000 : S_.BroadcastsInDim S16x100000 (![] : Fin 0 → Fin S16x100000.rank)
  bcast_S_S100000 : S_.BroadcastsInDim S100000 (![] : Fin 0 → Fin S100000.rank)
  bcast_S100000_S1x100000_1 : S100000.BroadcastsInDim S1x100000 (![1] : Fin 1 → Fin S1x100000.rank)
  bcast_S1x100000_S16x100000_0_1 : S1x100000.BroadcastsInDim S16x100000 (![0, 1] : Fin 2 → Fin S16x100000.rank)
  gather_S16x100000_S3200000x1_S16x3200000_0_1_n_n_1_1_161_wf : GatherDims.WF S16x100000 S3200000x1 S16x3200000 [0] [1] [] [1] [] 1 ![16, 1]
  scatter_S16x100000_S3200000x1_S16x3200000_0_1_1_1_wf : ScatterDims.WF S16x100000 S3200000x1 S16x3200000 [0] [1] [1] 1

variable [Facts₀]

def gather_S16x100000_S3200000x1_S16x3200000_0_1_n_n_1_1_161 : GatherDims S16x100000 S3200000x1 S16x3200000 where
  offsetDims := [0]
  collapsedSliceDims := [1]
  operandBatchingDims := []
  startIndicesBatchingDims := []
  startIndexMap := [1]
  indexVectorDim := 1
  sliceSizes := ![16, 1]
  wf := gather_S16x100000_S3200000x1_S16x3200000_0_1_n_n_1_1_161_wf
def scatter_S16x100000_S3200000x1_S16x3200000_0_1_1_1 : ScatterDims S16x100000 S3200000x1 S16x3200000 where
  updateWindowDims := [0]
  insertedWindowDims := [1]
  scatterDimsToOperandDims := [1]
  indexVectorDim := 1
  wf := scatter_S16x100000_S3200000x1_S16x3200000_0_1_1_1_wf

class Facts : Prop extends Facts₀ where

variable [Facts]
-- ==== Proof.Contrib.lean ====
/-
  Region 0, read as ONE array.  The first launch walks the 3 200 000 edges in 100 blocks of 32 000; at an
  edge `e` and a batch row `b` it forms the signed, weighted presynaptic output
      contrib[b, e] = (oj[b, e] · w[e]) · (if en[b, e] ≤ oj[b, e] then 1 else -1),
  where `oj` and `en` are the two gathered (16 × E) arrays and `w` the (1 × E) weight row.  Every operation of
  the body acts entry by entry, the three (16 × 32000) windows move together (block `t` sits at columns
  32000·t … 32000·t + 31999) and the weight row's window moves with them, so the block point `t` writes back is
  block `t` of that one function; the 100 blocks tile the array, so the array ends holding it.  Stated for
  ANY contents `V` of the buffers at the region's entry, and at any float instance.
-/
import proofs.«120688_j50070728737564_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Contrib

open Cert.KernelIdeal Cert.KernelIdeal.Gen Idealize.ShloMosaic Idealize.ShloMosaic.TcCoe Idealize.SL.Sem
open Idealize.ShloMosaic.ValueIdx
open Idealize.ShloMosaic.Pipeline (Dat Cfg Window)

variable {F : FTy → Type} [FloatOps F]

theorem zeros2 : (![0, 0] : Fin 2 → Nat) = fun _ => 0 := funext fun a => by fin_cases a <;> rfl

/-- One edge's contribution: the presynaptic output times the weight, with the sign of (output − postsynaptic state),
    ties counted positive. -/
def edge (oj en w : F .f32) : F .f32 :=
  FloatOps.mulf (FloatOps.mulf oj w)
    (Scalar.select (FloatOps.cmpf .oge oj en) (Scalar.ofBits .f32 0x3F800000#32) (Scalar.ofBits .f32 0xBF800000#32))

/-- The whole (16 × E) array of contributions: entry (b, e) from the gathered entries at (b, e) and the weight at e. -/
def contrib (oj en : S16x3200000.Idx → F .f32) (w : S1x3200000.Idx → F .f32) : S16x3200000.Idx → F .f32 :=
  fun i => edge (oj i) (en i) (w (ix2 (0 : Fin 1) (⟨(i 1).val, idx2_lt1 i⟩ : Fin 3200000)))

/-- The body's stored value at row `p`, column `q` of a block: the edge function of the three loaded blocks there
    (the weight block has one row). -/
theorem pay_apply (x0 x1 : Vec F S16x32000 .f32) (x2 : Vec F S1x32000 .f32) (p : Fin 16) (q : Fin 32000) :
    k0_pay1 x0 x1 x2 (ix2 p q) = edge (x0 (ix2 p q)) (x1 (ix2 p q)) (x2 (ix2 (0 : Fin 1) q)) := by
  unfold k0_pay1 edge
  dsimp only [mulf, select, cmpf, broadcast]
  rw [shapeCast_self, shapeCast_self, shapeCast_self, broadcastTo_1b_ab_apply]

/-- The four windows' block indices at grid point `t`: row block 0, column block `t`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

variable (V : (c : Dev nD) → (b : Ref sig .tc) → Buf (Elt F) ((c : Thread nD τ).loc b))

/-- What point `t` writes back is block `t` of the contributions of the arrays the region finds. -/
theorem flushed_eq (c : Dev nD) (t : Fin cfg0.N) :
    (dat0 V c).flushed 3 t
      = ((cfg0.win 3).blk t).view.read (Elt F) (contrib (V c main_v6) (V c main_v13) (V c main_v14)) := by
  show (cfg0.win 3).cut (grid0.coords t) ((dat0 V c).after 3 t) = _
  rw [after0_3]
  unfold out0_3
  rw [View.canon_unit_zero zeros2]
  simp only [View.ld_unit_zero (S := S16x32000) zeros2, View.ld_unit_zero (S := S1x32000) zeros2]
  obtain ⟨a00, a01, a10, a11, a20, a21, a30, a31⟩ := idx_facts t
  funext j
  obtain ⟨p, q, rfl⟩ : ∃ (p : Fin 16) (q : Fin 32000), j = ix2 p q := ⟨j 0, j 1, eq_ix2 j⟩
  refine (pay_apply _ _ _ p q).trans ?_
  show edge (V c main_v6 (((cfg0.win 0).blk t).view.emb (ix2 p q))) (V c main_v13 (((cfg0.win 1).blk t).view.emb (ix2 p q)))
      (V c main_v14 (((cfg0.win 2).blk t).view.emb (ix2 (0 : Fin 1) q)))
    = edge (V c main_v6 (((cfg0.win 3).blk t).view.emb (ix2 p q))) (V c main_v13 (((cfg0.win 3).blk t).view.emb (ix2 p q)))
      (V c main_v14 (ix2 (0 : Fin 1) (⟨((((cfg0.win 3).blk t).view.emb (ix2 p q)) 1).val, _⟩ : Fin 3200000)))
  have hp : p.val < 16 := p.isLt
  have hq : q.val < 32000 := q.isLt
  have h0 : ((cfg0.win 0).blk t).view.emb (ix2 p q) = ((cfg0.win 3).blk t).view.emb (ix2 p q) := by
    funext a; apply Fin.ext
    match a with
    | ⟨0, _⟩ => show win0_0.index t (0 : Fin 2) * 16 + 1 * p.val = win0_3.index t (0 : Fin 2) * 16 + 1 * p.val; omega
    | ⟨1, _⟩ => show win0_0.index t (1 : Fin 2) * 32000 + 1 * q.val = win0_3.index t (1 : Fin 2) * 32000 + 1 * q.val; omega
  have h1 : ((cfg0.win 1).blk t).view.emb (ix2 p q) = ((cfg0.win 3).blk t).view.emb (ix2 p q) := by
    funext a; apply Fin.ext
    match a with
    | ⟨0, _⟩ => show win0_1.index t (0 : Fin 2) * 16 + 1 * p.val = win0_3.index t (0 : Fin 2) * 16 + 1 * p.val; omega
    | ⟨1, _⟩ => show win0_1.index t (1 : Fin 2) * 32000 + 1 * q.val = win0_3.index t (1 : Fin 2) * 32000 + 1 * q.val; omega
  have h2 : ((cfg0.win 2).blk t).view.emb (ix2 (0 : Fin 1) q)
      = ix2 (0 : Fin 1) (⟨((((cfg0.win 3).blk t).view.emb (ix2 p q)) 1).val, idx2_lt1 _⟩ : Fin 3200000) := by
    funext a; apply Fin.ext
    match a with
    | ⟨0, _⟩ => show win0_2.index t (0 : Fin 2) * 1 + 1 * 0 = 0; omega
    | ⟨1, _⟩ => show win0_2.index t (1 : Fin 2) * 32000 + 1 * q.val = win0_3.index t (1 : Fin 2) * 32000 + 1 * q.val; omega
  rw [h0, h1, h2]

/-- An index of the array is in point `t`'s block iff each coordinate is in the block's range on its axis. -/
theorem mem_blk (t : Fin cfg0.N) (i : S16x3200000.Idx) :
    i ∈ ((cfg0.win 3).blk t).view.set ↔ ∀ a : Fin 2, win0_3.index t a * S16x32000.size a ≤ (i a).val
      ∧ (i a).val < win0_3.index t a * S16x32000.size a + S16x32000.size a := by
  show i ∈ ((View.whole main_v15).slice (win0_3.rect t)).set ↔ _
  rw [View.set_slice_whole, Rect.mem_set_unit]
  exact Iff.rfl

/-- Every edge column lies in exactly the block numbered by its quotient by 32000: the 100 blocks cover the array. -/
theorem cover (i : S16x3200000.Idx) :
    ∃ t : Fin cfg0.N, (cfg0.win 3).flush t = true ∧ i ∈ ((cfg0.win 3).blk t).view.set := by
  have hi0 : (i 0).val < 16 := idx2_lt0 i
  have hi1 : (i 1).val < 3200000 := idx2_lt1 i
  have hN : grid0.N = 100 := N_0
  have ht : (i 1).val / 32000 < grid0.N := by rw [hN]; omega
  obtain ⟨a00, a01, a10, a11, a20, a21, a30, a31⟩ := idx_facts ⟨(i 1).val / 32000, ht⟩
  refine ⟨⟨(i 1).val / 32000, ht⟩, flush0_3 _, ?_⟩
  rw [mem_blk]
  intro a
  match a with
  | ⟨0, _⟩ =>
    show win0_3.index ⟨(i 1).val / 32000, ht⟩ (0 : Fin 2) * 16 ≤ (i 0).val
      ∧ (i 0).val < win0_3.index ⟨(i 1).val / 32000, ht⟩ (0 : Fin 2) * 16 + 16
    omega
  | ⟨1, _⟩ =>
    show win0_3.index ⟨(i 1).val / 32000, ht⟩ (1 : Fin 2) * 32000 ≤ (i 1).val
      ∧ (i 1).val < win0_3.index ⟨(i 1).val / 32000, ht⟩ (1 : Fin 2) * 32000 + 32000
    have e : win0_3.index ⟨(i 1).val / 32000, ht⟩ (1 : Fin 2) = (i 1).val / 32000 := a31
    omega

/-- THE ARRAY region 0 leaves: the contributions of the arrays it found. -/
theorem contrib_array (c : Dev nD) :
    (dat0 V c).arrAt 3 cfg0.N = contrib (V c main_v6) (V c main_v13) (V c main_v14) :=
  (dat0 V c).arrAt_eq_of_cover 3 _ (fun t _ => flushed_eq V c t) cover

end Cert.KernelIdeal.Contrib

end
-- ==== Proof.Update.lean ====
/-
  Region 1, read as ONE array.  The second launch walks the 100 096 padded neuron columns in 17 blocks of 5888; at
  a batch row `b` and a column `n` it forms
      S = min(10, max(-10, (state[b, n] + (ex[b, n] - inh[b, n])) + gap[b, n])),
      T = softplus(thr[n]),      out[b, n] = max(S - T, 0),
  with softplus spelt as the stable sum  max(t, 0) + log1p(exp(0 - |t - 0|))  behind a guard `d ≠ d` on
  `d = t - 0` that selects `t + 0` instead.  Every operation acts entry by entry, the five (16 × 5888) windows
  move together (block `t` sits at columns 5888·t … 5888·t + 5887) and the threshold row's window moves with them,
  so the block point `t` writes back is block `t` of that one function; the 17 blocks tile the padded array, so the
  array ends holding it.  Stated for ANY contents `V` of the buffers at the region's entry, at any float instance.
-/
import proofs.«120688_j50070728737564_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Update

open Cert.KernelIdeal Cert.KernelIdeal.Gen Idealize.ShloMosaic Idealize.ShloMosaic.TcCoe Idealize.SL.Sem
open Idealize.ShloMosaic.ValueIdx
open Idealize.ShloMosaic.Pipeline (Dat Cfg Window)

variable {F : FTy → Type} [FloatOps F]

theorem zeros2 : (![0, 0] : Fin 2 → Nat) = fun _ => 0 := funext fun a => by fin_cases a <;> rfl

/-- The threshold's softplus as the body spells it: with `d = t - 0`, the value `t + 0` where `d ≠ d`, and
    `max(t, 0) + log1p(exp(0 - |d|))` elsewhere. -/
def softplusK (t : F .f32) : F .f32 :=
  Scalar.select
    (FloatOps.cmpf .one (FloatOps.subf t (Scalar.ofBits .f32 0x00000000#32)) (FloatOps.subf t (Scalar.ofBits .f32 0x00000000#32)))
    (FloatOps.addf t (Scalar.ofBits .f32 0x00000000#32))
    (FloatOps.addf (FloatOps.maximumf t (Scalar.ofBits .f32 0x00000000#32))
      (FloatOps.log1p (FloatOps.exp (FloatOps.subf (Scalar.ofBits .f32 0x00000000#32)
        (FloatOps.absf (FloatOps.subf t (Scalar.ofBits .f32 0x00000000#32)))))))

/-- One neuron's new output: the clamped input drive less the softplus threshold, cut off below at zero. -/
def neuron (ex inh st gap thr : F .f32) : F .f32 :=
  FloatOps.maximumf
    (FloatOps.subf
      (FloatOps.minimumf (Scalar.ofBits .f32 0x41200000#32)
        (FloatOps.maximumf (Scalar.ofBits .f32 0xC1200000#32)
          (FloatOps.addf (FloatOps.addf st (FloatOps.subf ex inh)) gap)))
      (softplusK thr))
    (Scalar.ofBits .f32 0x00000000#32)

/-- The whole padded (16 × 100096) array of outputs: entry (b, n) from the four arrays at (b, n) and the
    threshold row at n. -/
def update (ex inh st gap : S16x100096.Idx → F .f32) (thr : S1x100096.Idx → F .f32) : S16x100096.Idx → F .f32 :=
  fun i => neuron (ex i) (inh i) (st i) (gap i) (thr (ix2 (0 : Fin 1) (⟨(i 1).val, idx2_lt1 i⟩ : Fin 100096)))

/-- The body's stored value at row `p`, column `q` of a block: the neuron function of the five loaded blocks
    there (the threshold block has one row). -/
theorem pay_apply (x0 x1 x2 x3 : Vec F S16x5888 .f32) (x4 : Vec F S1x5888 .f32) (p : Fin 16) (q : Fin 5888) :
    k1_pay1 x0 x1 x2 x3 x4 (ix2 p q)
      = neuron (x0 (ix2 p q)) (x1 (ix2 p q)) (x2 (ix2 p q)) (x3 (ix2 p q)) (x4 (ix2 (0 : Fin 1) q)) := by
  unfold k1_pay1 neuron softplusK
  dsimp only [subf, addf, maximumf, minimumf, absf, exp, log1p, select, cmpf, broadcast]
  rw [shapeCast_self, shapeCast_self, shapeCast_self, shapeCast_self, broadcastTo_1b_ab_apply, shapeCast_self]
  rfl

/-- The six windows' block indices at grid point `t`: row block 0, column block `t`. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 2) = 0 ∧ win1_4.index t (1 : Fin 2) = t.val
    ∧ win1_5.index t (0 : Fin 2) = 0 ∧ win1_5.index t (1 : Fin 2) = t.val :=
  (by decide +kernel : ∀ t : Fin grid1.N, _)

variable (V : (c : Dev nD) → (b : Ref sig .tc) → Buf (Elt F) ((c : Thread nD τ).loc b))

/-- What point `t` writes back is block `t` of the update of the arrays the region finds. -/
theorem flushed_eq (c : Dev nD) (t : Fin cfg1.N) :
    (dat1 V c).flushed 5 t
      = ((cfg1.win 5).blk t).view.read (Elt F)
          (update (V c main_v24) (V c main_v25) (V c main_v26) (V c main_v27) (V c main_v29)) := by
  show (cfg1.win 5).cut (grid1.coords t) ((dat1 V c).after 5 t) = _
  rw [after1_5]
  unfold out1_5
  rw [View.canon_unit_zero zeros2]
  simp only [View.ld_unit_zero (S := S16x5888) zeros2, View.ld_unit_zero (S := S1x5888) zeros2]
  obtain ⟨a00, a01, a10, a11, a20, a21, a30, a31, a40, a41, a50, a51⟩ := idx_facts t
  funext j
  obtain ⟨p, q, rfl⟩ : ∃ (p : Fin 16) (q : Fin 5888), j = ix2 p q := ⟨j 0, j 1, eq_ix2 j⟩
  refine (pay_apply _ _ _ _ _ p q).trans ?_
  show neuron (V c main_v24 (((cfg1.win 0).blk t).view.emb (ix2 p q))) (V c main_v25 (((cfg1.win 1).blk t).view.emb (ix2 p q)))
      (V c main_v26 (((cfg1.win 2).blk t).view.emb (ix2 p q))) (V c main_v27 (((cfg1.win 3).blk t).view.emb (ix2 p q)))
      (V c main_v29 (((cfg1.win 4).blk t).view.emb (ix2 (0 : Fin 1) q)))
    = neuron (V c main_v24 (((cfg1.win 5).blk t).view.emb (ix2 p q))) (V c main_v25 (((cfg1.win 5).blk t).view.emb (ix2 p q)))
      (V c main_v26 (((cfg1.win 5).blk t).view.emb (ix2 p q))) (V c main_v27 (((cfg1.win 5).blk t).view.emb (ix2 p q)))
      (V c main_v29 (ix2 (0 : Fin 1) (⟨((((cfg1.win 5).blk t).view.emb (ix2 p q)) 1).val, _⟩ : Fin 100096)))
  have hp : p.val < 16 := p.isLt
  have hq : q.val < 5888 := q.isLt
  have h0 : ((cfg1.win 0).blk t).view.emb (ix2 p q) = ((cfg1.win 5).blk t).view.emb (ix2 p q) := by
    funext a; apply Fin.ext
    match a with
    | ⟨0, _⟩ => show win1_0.index t (0 : Fin 2) * 16 + 1 * p.val = win1_5.index t (0 : Fin 2) * 16 + 1 * p.val; omega
    | ⟨1, _⟩ => show win1_0.index t (1 : Fin 2) * 5888 + 1 * q.val = win1_5.index t (1 : Fin 2) * 5888 + 1 * q.val; omega
  have h1 : ((cfg1.win 1).blk t).view.emb (ix2 p q) = ((cfg1.win 5).blk t).view.emb (ix2 p q) := by
    funext a; apply Fin.ext
    match a with
    | ⟨0, _⟩ => show win1_1.index t (0 : Fin 2) * 16 + 1 * p.val = win1_5.index t (0 : Fin 2) * 16 + 1 * p.val; omega
    | ⟨1, _⟩ => show win1_1.index t (1 : Fin 2) * 5888 + 1 * q.val = win1_5.index t (1 : Fin 2) * 5888 + 1 * q.val; omega
  have h2 : ((cfg1.win 2).blk t).view.emb (ix2 p q) = ((cfg1.win 5).blk t).view.emb (ix2 p q) := by
    funext a; apply Fin.ext
    match a with
    | ⟨0, _⟩ => show win1_2.index t (0 : Fin 2) * 16 + 1 * p.val = win1_5.index t (0 : Fin 2) * 16 + 1 * p.val; omega
    | ⟨1, _⟩ => show win1_2.index t (1 : Fin 2) * 5888 + 1 * q.val = win1_5.index t (1 : Fin 2) * 5888 + 1 * q.val; omega
  have h3 : ((cfg1.win 3).blk t).view.emb (ix2 p q) = ((cfg1.win 5).blk t).view.emb (ix2 p q) := by
    funext a; apply Fin.ext
    match a with
    | ⟨0, _⟩ => show win1_3.index t (0 : Fin 2) * 16 + 1 * p.val = win1_5.index t (0 : Fin 2) * 16 + 1 * p.val; omega
    | ⟨1, _⟩ => show win1_3.index t (1 : Fin 2) * 5888 + 1 * q.val = win1_5.index t (1 : Fin 2) * 5888 + 1 * q.val; omega
  have h4 : ((cfg1.win 4).blk t).view.emb (ix2 (0 : Fin 1) q)
      = ix2 (0 : Fin 1) (⟨((((cfg1.win 5).blk t).view.emb (ix2 p q)) 1).val, idx2_lt1 _⟩ : Fin 100096) := by
    funext a; apply Fin.ext
    match a with
    | ⟨0, _⟩ => show win1_4.index t (0 : Fin 2) * 1 + 1 * 0 = 0; omega
    | ⟨1, _⟩ => show win1_4.index t (1 : Fin 2) * 5888 + 1 * q.val = win1_5.index t (1 : Fin 2) * 5888 + 1 * q.val; omega
  rw [h0, h1, h2, h3, h4]

/-- An index of the array is in point `t`'s block iff each coordinate is in the block's range on its axis. -/
theorem mem_blk (t : Fin cfg1.N) (i : S16x100096.Idx) :
    i ∈ ((cfg1.win 5).blk t).view.set ↔ ∀ a : Fin 2, win1_5.index t a * S16x5888.size a ≤ (i a).val
      ∧ (i a).val < win1_5.index t a * S16x5888.size a + S16x5888.size a := by
  show i ∈ ((View.whole main_v30).slice (win1_5.rect t)).set ↔ _
  rw [View.set_slice_whole, Rect.mem_set_unit]
  exact Iff.rfl

/-- Every padded column lies in the block numbered by its quotient by 5888: the 17 blocks cover the array. -/
theorem cover (i : S16x100096.Idx) :
    ∃ t : Fin cfg1.N, (cfg1.win 5).flush t = true ∧ i ∈ ((cfg1.win 5).blk t).view.set := by
  have hi0 : (i 0).val < 16 := idx2_lt0 i
  have hi1 : (i 1).val < 100096 := idx2_lt1 i
  have hN : grid1.N = 17 := N_1
  have ht : (i 1).val / 5888 < grid1.N := by rw [hN]; omega
  obtain ⟨a00, a01, a10, a11, a20, a21, a30, a31, a40, a41, a50, a51⟩ := idx_facts ⟨(i 1).val / 5888, ht⟩
  refine ⟨⟨(i 1).val / 5888, ht⟩, flush1_5 _, ?_⟩
  rw [mem_blk]
  intro a
  match a with
  | ⟨0, _⟩ =>
    show win1_5.index ⟨(i 1).val / 5888, ht⟩ (0 : Fin 2) * 16 ≤ (i 0).val
      ∧ (i 0).val < win1_5.index ⟨(i 1).val / 5888, ht⟩ (0 : Fin 2) * 16 + 16
    omega
  | ⟨1, _⟩ =>
    show win1_5.index ⟨(i 1).val / 5888, ht⟩ (1 : Fin 2) * 5888 ≤ (i 1).val
      ∧ (i 1).val < win1_5.index ⟨(i 1).val / 5888, ht⟩ (1 : Fin 2) * 5888 + 5888
    have e : win1_5.index ⟨(i 1).val / 5888, ht⟩ (1 : Fin 2) = (i 1).val / 5888 := a51
    omega

/-- THE ARRAY region 1 leaves: the update of the arrays it found. -/
theorem update_array (c : Dev nD) :
    (dat1 V c).arrAt 5 cfg1.N
      = update (V c main_v24) (V c main_v25) (V c main_v26) (V c main_v27) (V c main_v29) :=
  (dat1 V c).arrAt_eq_of_cover 5 _ (fun t _ => flushed_eq V c t) cover

end Cert.KernelIdeal.Update

end
-- ==== Proof.HostGlue.lean ====
/-
  The host operations around the two launches, read at the buffers the launches consume, from ANY contents `W` of
  the TensorCore's buffers (the run instantiates `W` last).
  Before the first launch: the two gathers  o_pre[:, src]  and  state[:, dst]  (each index list first normalised,
  a negative entry counting from the end) and the weight list as a one-row array.
  Between the launches: the contributions scatter-added into a zero (16 × N) array at the `dst` columns, and each of
  the five operands of the second launch padded with 96 trailing columns (the threshold list also recast as one row).
  None of these operations touches an argument array, so the arguments read through them unchanged.
-/
import proofs.«120688_j50070728737564_1_alg».proof.Proof.Gen.KernelIdeal.Frame
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo

variable {F : FTy → Type} [FloatOps F]

/-- An edge-endpoint list as a column of row indices: a negative entry counts from the end (100000 is added). -/
def idxCol (x : IVec S3200000 32) : IVec S3200000x1 32 :=
  broadcastInDim S3200000x1 ![0] bcast_S3200000_S3200000x1_0
    (select (cmpi .slt x (broadcastInDim S3200000 ![] bcast_S_S3200000 (constantI S_ 32 0#32)))
      (addi x (broadcastInDim S3200000 ![] bcast_S_S3200000 (constantI S_ 32 100000#32))) x)

/-- The columns of a (16 × N) array picked out by an endpoint list: a (16 × E) array. -/
def gathered (x : FVec F S16x100000 .f32) (ix : IVec S3200000 32) : FVec F S16x3200000 .f32 :=
  Host.gather gather_S16x100000_S3200000x1_S16x3200000_0_1_n_n_1_1_161 x (idxCol ix)

/-- The weight list as a one-row array. -/
def weightRow (w : FVec F S3200000 .f32) : FVec F S1x3200000 .f32 :=
  shapeCast S1x3200000 w shapeCasts_S3200000_S1x3200000

/-- The per-edge contributions summed into the columns their endpoints name, from a zero array. -/
def gapSum (ix : IVec S3200000 32) (u : FVec F S16x3200000 .f32) : FVec F S16x100000 .f32 :=
  Host.scatterAdd scatter_S16x100000_S3200000x1_S16x3200000_0_1_1_1
    (broadcastInDim S16x100000 ![] bcast_S_S16x100000 (constant S_ .f32 0x00000000#32)) (idxCol ix) u

/-- A (16 × N) array with 96 trailing columns of the padding value (the integer 0 converted). -/
def padCols (x : FVec F S16x100000 .f32) : FVec F S16x100096 .f32 :=
  pad S16x100096 ![0, 0] ![0, 96] ![0, 0] x (sitofp .f32 (constantI S_ 32 0#32) : FVec F S_ .f32)
    pads_S16x100000_S16x100096_000_0960 h_S_

/-- A length-N list with 96 trailing entries of the padding value, as a one-row array. -/
def padRow (x : FVec F S100000 .f32) : FVec F S1x100096 .f32 :=
  shapeCast S1x100096
    (pad S100096 ![0] ![96] ![0] x (sitofp .f32 (constantI S_ 32 0#32) : FVec F S_ .f32) pads_S100000_S100096_0960 h_S_)
    shapeCasts_S100096_S1x100096

variable (W : Valuation τ sig (Elt F))

/-! ## Before the first launch -/

theorem pre_v6 : after hostOps0 W (Proc.devRef .tc main_v6)
    = gathered (W (Proc.devRef .tc main_arg2)) (W (Proc.devRef .tc main_arg4)) := by
  unfold gathered idxCol; dsimp only [hostOps0]; after_results <;> rfl
theorem pre_v13 : after hostOps0 W (Proc.devRef .tc main_v13)
    = gathered (W (Proc.devRef .tc main_arg3)) (W (Proc.devRef .tc main_arg5)) := by
  unfold gathered idxCol; dsimp only [hostOps0]; after_results <;> rfl
theorem pre_v14 : after hostOps0 W (Proc.devRef .tc main_v14) = weightRow (W (Proc.devRef .tc main_arg6)) := by
  unfold weightRow; dsimp only [hostOps0]; after_results <;> rfl
theorem pre_arg0 : after hostOps0 W (Proc.devRef .tc main_arg0) = W (Proc.devRef .tc main_arg0) := by
  dsimp only [hostOps0]; after_results
theorem pre_arg1 : after hostOps0 W (Proc.devRef .tc main_arg1) = W (Proc.devRef .tc main_arg1) := by
  dsimp only [hostOps0]; after_results
theorem pre_arg3 : after hostOps0 W (Proc.devRef .tc main_arg3) = W (Proc.devRef .tc main_arg3) := by
  dsimp only [hostOps0]; after_results
theorem pre_arg5 : after hostOps0 W (Proc.devRef .tc main_arg5) = W (Proc.devRef .tc main_arg5) := by
  dsimp only [hostOps0]; after_results
theorem pre_arg7 : after hostOps0 W (Proc.devRef .tc main_arg7) = W (Proc.devRef .tc main_arg7) := by
  dsimp only [hostOps0]; after_results

/-! ## Between the launches -/

/-- The eleven stretches of host operations between the launches, in order. -/
def mid (W : Valuation τ sig (Elt F)) : Valuation τ sig (Elt F) :=
  after hostOps1_10 (after hostOps1_9 (after hostOps1_8 (after hostOps1_7 (after hostOps1_6 (after hostOps1_5
    (after hostOps1_4 (after hostOps1_3 (after hostOps1_2 (after hostOps1_1 (after hostOps1 W))))))))))

theorem mid_v24 : mid W (Proc.devRef .tc main_v24) = padCols (W (Proc.devRef .tc main_arg0)) := by
  unfold mid padCols
  dsimp only [hostOps1, hostOps1_1, hostOps1_2, hostOps1_3, hostOps1_4, hostOps1_5, hostOps1_6, hostOps1_7, hostOps1_8, hostOps1_9, hostOps1_10]
  after_results <;> rfl
theorem mid_v25 : mid W (Proc.devRef .tc main_v25) = padCols (W (Proc.devRef .tc main_arg1)) := by
  unfold mid padCols
  dsimp only [hostOps1, hostOps1_1, hostOps1_2, hostOps1_3, hostOps1_4, hostOps1_5, hostOps1_6, hostOps1_7, hostOps1_8, hostOps1_9, hostOps1_10]
  after_results <;> rfl
theorem mid_v26 : mid W (Proc.devRef .tc main_v26) = padCols (W (Proc.devRef .tc main_arg3)) := by
  unfold mid padCols
  dsimp only [hostOps1, hostOps1_1, hostOps1_2, hostOps1_3, hostOps1_4, hostOps1_5, hostOps1_6, hostOps1_7, hostOps1_8, hostOps1_9, hostOps1_10]
  after_results <;> rfl
theorem mid_v27 : mid W (Proc.devRef .tc main_v27)
    = padCols (gapSum (W (Proc.devRef .tc main_arg5)) (W (Proc.devRef .tc main_v15))) := by
  unfold mid padCols gapSum idxCol
  dsimp only [hostOps1, hostOps1_1, hostOps1_2, hostOps1_3, hostOps1_4, hostOps1_5, hostOps1_6, hostOps1_7, hostOps1_8, hostOps1_9, hostOps1_10]
  after_results <;> rfl
theorem mid_v29 : mid W (Proc.devRef .tc main_v29) = padRow (W (Proc.devRef .tc main_arg7)) := by
  unfold mid padRow
  dsimp only [hostOps1, hostOps1_1, hostOps1_2, hostOps1_3, hostOps1_4, hostOps1_5, hostOps1_6, hostOps1_7, hostOps1_8, hostOps1_9, hostOps1_10]
  after_results <;> rfl

/-! ## After the second launch -/

theorem post_v31 : after hostOps2 W (Proc.devRef .tc main_v31)
    = extractStridedSlice S16x100000 ![0, 0] (W (Proc.devRef .tc main_v30)) slices_S16x100096_S16x100000_0_0 := by
  dsimp only [hostOps2]; after_results

end Cert.KernelIdeal.Glue

end
-- ==== Proof.Spec.lean ====
/-
  The kernel program's result as ONE function of its argument arrays, and that function read at an entry.
      result = slice[:, :N] ( update( pad ex, pad inh, pad state, pad gap, padrow thr ) ),
      gap    = scatter-add at dst of  contrib( o_pre[:, src], state[:, dst], w ).
  Padding appends 96 columns and the final slice drops exactly those, so at a batch row `b` and a neuron `n < N`
  every padded operand is read inside the original array: the entry is the neuron function of the arguments'
  entries at (b, n), of the gap-junction sum at (b, n), and of the threshold at n.
-/
import proofs.«120688_j50070728737564_1_alg».proof.Proof.Contrib
import proofs.«120688_j50070728737564_1_alg».proof.Proof.Update
import proofs.«120688_j50070728737564_1_alg».proof.Proof.HostGlue
import Idealize.ShloMosaic.Lib.KernelVsHost

noncomputable section

namespace Cert.KernelIdeal.Spec

open Cert.KernelIdeal Idealize.ShloMosaic Idealize.ShloMosaic.ValueIdx
open Cert.KernelIdeal.Glue Cert.KernelIdeal.Contrib Cert.KernelIdeal.Update
open Facts₀ Facts

variable {F : FTy → Type} [FloatOps F]

/-- The gap-junction sums: the edges' contributions, from the two gathered arrays and the weights, added into the
    columns the `dst` list names. -/
def gap (a2 a3 : FVec F S16x100000 .f32) (a4 a5 : IVec S3200000 32) (a6 : FVec F S3200000 .f32) : FVec F S16x100000 .f32 :=
  gapSum a5 (contrib (gathered a2 a4) (gathered a3 a5) (weightRow a6))

/-- The program's result: the second launch's array on the padded operands, cut back to the N neurons. -/
def result (a0 a1 a2 a3 : FVec F S16x100000 .f32) (a4 a5 : IVec S3200000 32) (a6 : FVec F S3200000 .f32)
    (a7 : FVec F S100000 .f32) : FVec F S16x100000 .f32 :=
  extractStridedSlice S16x100000 ![0, 0]
    (update (padCols a0) (padCols a1) (padCols a3) (padCols (gap a2 a3 a4 a5 a6)) (padRow a7))
    slices_S16x100096_S16x100000_0_0

/-- A neuron's column seen in the padded array. -/
abbrev wide (n : Fin 100000) : Fin 100096 := ⟨n.val, by have := n.isLt; omega⟩

/-- A padded array read inside the original columns is the original array. -/
theorem padCols_apply (x : FVec F S16x100000 .f32) (b : Fin 16) (n : Fin 100000) :
    padCols x (ix2 b (wide n)) = x (ix2 b n) := by
  unfold padCols
  refine pad_apply_of_inside _ _ _ x _ _ _ (ix2 b (wide n)) (ix2 b n) fun a => ?_
  match a with
  | ⟨0, _⟩ => show b.val = 0 + b.val * (0 + 1); omega
  | ⟨1, _⟩ => show n.val = 0 + n.val * (0 + 1); omega

/-- The padded threshold row read inside the original entries is the threshold list. -/
theorem padRow_apply (x : FVec F S100000 .f32) (n : Fin 100000) :
    padRow x (ix2 (0 : Fin 1) (wide n)) = x (ix1 n) := by
  unfold padRow
  refine (shapeCast_a_1a_apply _ _ (0 : Fin 1) (wide n)).trans ?_
  refine pad_apply_of_inside _ _ _ x _ _ _ (ix1 (wide n)) (ix1 n) fun a => ?_
  match a with
  | ⟨0, _⟩ => show n.val = 0 + n.val * (0 + 1); omega

/-- THE RESULT AT AN ENTRY: the neuron function of the arguments at (b, n), the gap-junction sum at (b, n) and
    the threshold at n. -/
theorem result_apply (a0 a1 a2 a3 : FVec F S16x100000 .f32) (a4 a5 : IVec S3200000 32) (a6 : FVec F S3200000 .f32)
    (a7 : FVec F S100000 .f32) (b : Fin 16) (n : Fin 100000) :
    result a0 a1 a2 a3 a4 a5 a6 a7 (ix2 b n)
      = neuron (a0 (ix2 b n)) (a1 (ix2 b n)) (a3 (ix2 b n)) (gap a2 a3 a4 a5 a6 (ix2 b n)) (a7 (ix1 n)) := by
  unfold result
  refine (extractStridedSlice_apply _ _ _ (ix2 b n) (ix2 b (wide n)) fun a => ?_).trans ?_
  · match a with
    | ⟨0, _⟩ => show b.val = 0 + b.val; omega
    | ⟨1, _⟩ => show n.val = 0 + n.val; omega
  · show neuron (padCols a0 (ix2 b (wide n))) (padCols a1 (ix2 b (wide n))) (padCols a3 (ix2 b (wide n)))
        (padCols (gap a2 a3 a4 a5 a6) (ix2 b (wide n))) (padRow a7 (ix2 (0 : Fin 1) (wide n))) = _
    rw [padCols_apply, padCols_apply, padCols_apply, padCols_apply, padRow_apply]

end Cert.KernelIdeal.Spec

end
-- ==== Proof.KernelValue.lean ====
/-
  The kernel program's run, with its result read as one function of the arguments.
  Walking the run's boundaries back from the return: the result buffer is the slice of the second launch's array;
  that array is the update of the five padded operands the host wrote between the launches; four of them pad an
  argument array, which nothing before them writes, and the fifth pads the scatter-added sum of the first launch's
  array; that array is the contributions of the two gathers and the weight row the host wrote before the first launch,
  each read off the arguments as launched.
-/
import proofs.«120688_j50070728737564_1_alg».proof.Proof.Spec
import proofs.«120688_j50070728737564_1_alg».proof.Proof.FrameResult

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.StableHlo
open Cert.KernelIdeal.Glue Cert.KernelIdeal.Contrib Cert.KernelIdeal.Update Cert.KernelIdeal.Spec

variable {F : FTy → Type} [FloatOps F]
variable (m : (ℓ : Loc nD τ sig) → Buf (Elt F) ℓ) (ρ : Dev nD → PrngReg)

/-- An argument array, at the first launch's exit, is as launched: the launch's arrays are other buffers and
    the host operations before it write none. -/
theorem exit0_arg0 (c : Dev nD) : W2 m ρ c (Proc.devRef .tc main_arg0) = m ((c : Thread nD τ).loc main_arg0) :=
  (W2_of_ne m ρ c main_arg0 (by decide)).trans (pre_arg0 (W0 m ρ c))
theorem exit0_arg1 (c : Dev nD) : W2 m ρ c (Proc.devRef .tc main_arg1) = m ((c : Thread nD τ).loc main_arg1) :=
  (W2_of_ne m ρ c main_arg1 (by decide)).trans (pre_arg1 (W0 m ρ c))
theorem exit0_arg3 (c : Dev nD) : W2 m ρ c (Proc.devRef .tc main_arg3) = m ((c : Thread nD τ).loc main_arg3) :=
  (W2_of_ne m ρ c main_arg3 (by decide)).trans (pre_arg3 (W0 m ρ c))
theorem exit0_arg5 (c : Dev nD) : W2 m ρ c (Proc.devRef .tc main_arg5) = m ((c : Thread nD τ).loc main_arg5) :=
  (W2_of_ne m ρ c main_arg5 (by decide)).trans (pre_arg5 (W0 m ρ c))
theorem exit0_arg7 (c : Dev nD) : W2 m ρ c (Proc.devRef .tc main_arg7) = m ((c : Thread nD τ).loc main_arg7) :=
  (W2_of_ne m ρ c main_arg7 (by decide)).trans (pre_arg7 (W0 m ρ c))

/-- The first launch's array: the contributions of the gathers of the arguments as launched. -/
theorem exit0_v15 (c : Dev nD) : W2 m ρ c (Proc.devRef .tc main_v15)
    = contrib (gathered (m ((c : Thread nD τ).loc main_arg2)) (m ((c : Thread nD τ).loc main_arg4)))
        (gathered (m ((c : Thread nD τ).loc main_arg3)) (m ((c : Thread nD τ).loc main_arg5)))
        (weightRow (m ((c : Thread nD τ).loc main_arg6))) := by
  refine (W2_arr m ρ c 3).trans ((contrib_array (V1 m ρ) c).trans ?_)
  show contrib (after hostOps0 (W0 m ρ c) (Proc.devRef .tc main_v6)) (after hostOps0 (W0 m ρ c) (Proc.devRef .tc main_v13))
      (after hostOps0 (W0 m ρ c) (Proc.devRef .tc main_v14)) = _
  rw [pre_v6, pre_v13, pre_v14]

/-- The second launch's array: the update of the padded arguments and the padded gap-junction sums. -/
theorem exit1_v30 (c : Dev nD) : W14 m ρ c (Proc.devRef .tc main_v30)
    = update (padCols (m ((c : Thread nD τ).loc main_arg0))) (padCols (m ((c : Thread nD τ).loc main_arg1)))
        (padCols (m ((c : Thread nD τ).loc main_arg3)))
        (padCols (gap (m ((c : Thread nD τ).loc main_arg2)) (m ((c : Thread nD τ).loc main_arg3))
          (m ((c : Thread nD τ).loc main_arg4)) (m ((c : Thread nD τ).loc main_arg5)) (m ((c : Thread nD τ).loc main_arg6))))
        (padRow (m ((c : Thread nD τ).loc main_arg7))) := by
  refine (W14_arr m ρ c 5).trans ((update_array (V13 m ρ) c).trans ?_)
  show update (mid (W2 m ρ c) (Proc.devRef .tc main_v24)) (mid (W2 m ρ c) (Proc.devRef .tc main_v25))
      (mid (W2 m ρ c) (Proc.devRef .tc main_v26)) (mid (W2 m ρ c) (Proc.devRef .tc main_v27))
      (mid (W2 m ρ c) (Proc.devRef .tc main_v29)) = _
  rw [mid_v24, mid_v25, mid_v26, mid_v27, mid_v29, exit0_arg0, exit0_arg1, exit0_arg3, exit0_arg5, exit0_arg7, exit0_v15]
  rfl

/-- THE RESULT BUFFER at the return: the program's `result` of the arguments as launched. -/
theorem result_eq (c : Dev nD) : W15 m ρ c (Proc.devRef .tc main_v31)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (post_v31 (W14 m ρ c)).trans ?_
  rw [exit1_v30]
  rfl

/-- THE RUN: every weakly fair execution terminates, nothing faulting, with the result buffer at `result` of the
    arguments and the arguments unchanged. -/
theorem run : θ_run defs (onTc (τ := τ) (main (F := F))) ⟨m, fun _ => 0, ρ⟩ (fun r => ∀ c : Dev nD,
      r.2.mem ((c.tc : Thread nD τ).loc main_v31)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.GenP.frame_with_result m ρ)

end Cert.KernelIdeal.RunValue

end
-- ==== Proof.Bridge.lean ====
/-
  The two programs compute one function on the extended reals.
  The reference's result, entry (b, n):   max( min(10, max(-10, (state + (ex - inh)) + gap)) - softplus(thr n), 0 ),
  with  gap = scatter-add at dst of  (oj · w) · sign,  the same gathers, the same scatter.  The kernel program's
  `result` is the same expression over the same gathers and the same scatter; three spellings differ:
    • the weight list reaches the (16 × E) product as a one-row array broadcast down (kernel) or as two
      `broadcast_in_dim`s (reference): both read the weight at the edge;
    • softplus's guard `d ≠ d` is the ordered comparison in the kernel and the unordered one in the reference:
      the extended reals have no unordered pair, and both are the one test `d ≠ d`;
    • `exp(0 - |d|)` (kernel) against `exp(-|d|)` (reference):  0 - a = -a  on the extended reals.
  The scatter-added sum is carried as ONE array on both sides: only the contributions fed to it are compared.
  No finiteness is used: no step distributes a product over a sum or cancels.
-/
import proofs.«120688_j50070728737564_1_alg».proof.Proof.Spec
import proofs.«120688_j50070728737564_1_alg».proof.Proof.Gen.ReferenceIdeal
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.ReferenceIdeal.Bridge

open Cert.ReferenceIdeal Cert.ReferenceIdeal.Gen Idealize.ShloMosaic Idealize.ShloMosaic.ValueIdx

/-- Softplus of a threshold, as the reference spells it, is the kernel's spelling: the two guards are the one test
    `d ≠ d`, and `0 - a = -a`. -/
theorem softplus_eq (t : Ideal .f32) :
    Scalar.select
        (FloatOps.cmpf .une (FloatOps.subf t (FloatOps.ofBits .f32 0x00000000#32)) (FloatOps.subf t (FloatOps.ofBits .f32 0x00000000#32)))
        (FloatOps.addf t (FloatOps.ofBits .f32 0x00000000#32))
        (FloatOps.addf (FloatOps.maximumf t (FloatOps.ofBits .f32 0x00000000#32))
          (FloatOps.hostUnary .log1p (FloatOps.hostUnary .exp
            (FloatOps.hostNegf (FloatOps.hostAbsf (FloatOps.subf t (FloatOps.ofBits .f32 0x00000000#32)))))))
      = Cert.KernelIdeal.Update.softplusK (F := Ideal) t := by
  unfold Cert.KernelIdeal.Update.softplusK
  have hneg : ∀ x : Ideal .f32, FloatOps.subf (FloatOps.ofBits (F := Ideal) .f32 0x00000000#32) x = FloatOps.hostNegf x := fun x => by
    show Ideal.ofBits .f32 0x00000000#32 - x = -x
    rw [Ideal.ofBits_zero_f32, zero_sub]
  rw [hneg]
  rfl

/-- The reference's (16 × E) array of contributions is the kernel's: at an edge both read the two gathered entries
    and the edge's weight. -/
theorem contrib_eq (a2 a3 : FVec Ideal S16x100000 .f32) (a4 a5 : IVec S3200000 32) (a6 : FVec Ideal S3200000 .f32) :
    (mulf (mulf (Host.gather gather_S16x100000_S3200000x1_S16x3200000_0_1_n_n_1_1_161 a2 (broadcastInDim S3200000x1 ![0] bcast_S3200000_S3200000x1_0 (select (cmpi .slt a4 (broadcastInDim S3200000 ![] bcast_S_S3200000 (constantI S_ 32 0#32))) (addi a4 (broadcastInDim S3200000 ![] bcast_S_S3200000 (constantI S_ 32 100000#32))) a4))) (broadcastInDim S16x3200000 ![0, 1] bcast_S1x3200000_S16x3200000_0_1 (broadcastInDim S1x3200000 ![1] bcast_S3200000_S1x3200000_1 a6))) (id (select (cmpf .oge (Host.gather gather_S16x100000_S3200000x1_S16x3200000_0_1_n_n_1_1_161 a2 (broadcastInDim S3200000x1 ![0] bcast_S3200000_S3200000x1_0 (select (cmpi .slt a4 (broadcastInDim S3200000 ![] bcast_S_S3200000 (constantI S_ 32 0#32))) (addi a4 (broadcastInDim S3200000 ![] bcast_S_S3200000 (constantI S_ 32 100000#32))) a4))) (Host.gather gather_S16x100000_S3200000x1_S16x3200000_0_1_n_n_1_1_161 a3 (broadcastInDim S3200000x1 ![0] bcast_S3200000_S3200000x1_0 (select (cmpi .slt a5 (broadcastInDim S3200000 ![] bcast_S_S3200000 (constantI S_ 32 0#32))) (addi a5 (broadcastInDim S3200000 ![] bcast_S_S3200000 (constantI S_ 32 100000#32))) a5)))) (broadcastInDim S16x3200000 ![] bcast_S_S16x3200000 (constant S_ .f32 0x3F800000#32)) (broadcastInDim S16x3200000 ![] bcast_S_S16x3200000 (constant S_ .f32 0xBF800000#32)))))
      = Cert.KernelIdeal.Contrib.contrib (F := Ideal) (Cert.KernelIdeal.Glue.gathered a2 a4)
          (Cert.KernelIdeal.Glue.gathered a3 a5) (Cert.KernelIdeal.Glue.weightRow a6) := by
  funext i
  obtain ⟨b, e, rfl⟩ : ∃ (b : Fin 16) (e : Fin 3200000), i = ix2 b e := ⟨i 0, i 1, eq_ix2 i⟩
  have hw : (broadcastInDim S16x3200000 ![0, 1] bcast_S1x3200000_S16x3200000_0_1 (broadcastInDim S1x3200000 ![1] bcast_S3200000_S1x3200000_1 a6)) (ix2 b e) = a6 (ix1 e) := by
    refine (broadcastInDim_apply _ _ _ (ix2 b e) (ix2 (0 : Fin 1) e) fun a => ?_).trans ?_
    · match a with
      | ⟨0, _⟩ => show (0 : ℕ) = if (1 : ℕ) = 1 then 0 else _; rw [if_pos rfl]
      | ⟨1, _⟩ => show e.val = if (3200000 : ℕ) = 1 then 0 else e.val; rw [if_neg (by decide)]
    · refine broadcastInDim_apply _ _ _ (ix2 (0 : Fin 1) e) (ix1 e) fun a => ?_
      match a with
      | ⟨0, _⟩ => show e.val = if (3200000 : ℕ) = 1 then 0 else e.val; rw [if_neg (by decide)]
  have hw' : Cert.KernelIdeal.Glue.weightRow a6 (ix2 (0 : Fin 1) e) = a6 (ix1 e) := shapeCast_a_1a_apply _ _ _ _
  show FloatOps.mulf (FloatOps.mulf ((Host.gather gather_S16x100000_S3200000x1_S16x3200000_0_1_n_n_1_1_161 a2 (broadcastInDim S3200000x1 ![0] bcast_S3200000_S3200000x1_0 (select (cmpi .slt a4 (broadcastInDim S3200000 ![] bcast_S_S3200000 (constantI S_ 32 0#32))) (addi a4 (broadcastInDim S3200000 ![] bcast_S_S3200000 (constantI S_ 32 100000#32))) a4))) (ix2 b e)) ((broadcastInDim S16x3200000 ![0, 1] bcast_S1x3200000_S16x3200000_0_1 (broadcastInDim S1x3200000 ![1] bcast_S3200000_S1x3200000_1 a6)) (ix2 b e)))
        (Scalar.select (FloatOps.cmpf .oge ((Host.gather gather_S16x100000_S3200000x1_S16x3200000_0_1_n_n_1_1_161 a2 (broadcastInDim S3200000x1 ![0] bcast_S3200000_S3200000x1_0 (select (cmpi .slt a4 (broadcastInDim S3200000 ![] bcast_S_S3200000 (constantI S_ 32 0#32))) (addi a4 (broadcastInDim S3200000 ![] bcast_S_S3200000 (constantI S_ 32 100000#32))) a4))) (ix2 b e)) ((Host.gather gather_S16x100000_S3200000x1_S16x3200000_0_1_n_n_1_1_161 a3 (broadcastInDim S3200000x1 ![0] bcast_S3200000_S3200000x1_0 (select (cmpi .slt a5 (broadcastInDim S3200000 ![] bcast_S_S3200000 (constantI S_ 32 0#32))) (addi a5 (broadcastInDim S3200000 ![] bcast_S_S3200000 (constantI S_ 32 100000#32))) a5))) (ix2 b e)))
          (FloatOps.ofBits .f32 0x3F800000#32) (FloatOps.ofBits .f32 0xBF800000#32))
     = FloatOps.mulf (FloatOps.mulf ((Host.gather gather_S16x100000_S3200000x1_S16x3200000_0_1_n_n_1_1_161 a2 (broadcastInDim S3200000x1 ![0] bcast_S3200000_S3200000x1_0 (select (cmpi .slt a4 (broadcastInDim S3200000 ![] bcast_S_S3200000 (constantI S_ 32 0#32))) (addi a4 (broadcastInDim S3200000 ![] bcast_S_S3200000 (constantI S_ 32 100000#32))) a4))) (ix2 b e)) (Cert.KernelIdeal.Glue.weightRow a6 (ix2 (0 : Fin 1) e)))
        (Scalar.select (FloatOps.cmpf .oge ((Host.gather gather_S16x100000_S3200000x1_S16x3200000_0_1_n_n_1_1_161 a2 (broadcastInDim S3200000x1 ![0] bcast_S3200000_S3200000x1_0 (select (cmpi .slt a4 (broadcastInDim S3200000 ![] bcast_S_S3200000 (constantI S_ 32 0#32))) (addi a4 (broadcastInDim S3200000 ![] bcast_S_S3200000 (constantI S_ 32 100000#32))) a4))) (ix2 b e)) ((Host.gather gather_S16x100000_S3200000x1_S16x3200000_0_1_n_n_1_1_161 a3 (broadcastInDim S3200000x1 ![0] bcast_S3200000_S3200000x1_0 (select (cmpi .slt a5 (broadcastInDim S3200000 ![] bcast_S_S3200000 (constantI S_ 32 0#32))) (addi a5 (broadcastInDim S3200000 ![] bcast_S_S3200000 (constantI S_ 32 100000#32))) a5))) (ix2 b e)))
          (FloatOps.ofBits .f32 0x3F800000#32) (FloatOps.ofBits .f32 0xBF800000#32))
  rw [hw, hw']

/-- The reference's last operations over ANY gap-junction array `g`, read at (b, n): the kernel's neuron function of
    the entries there, of `g` there, and of the threshold at n. -/
theorem assemble (a0 a1 a3 g : FVec Ideal S16x100000 .f32) (a7 : FVec Ideal S100000 .f32) (b : Fin 16) (n : Fin 100000) :
    (maximumf (subf (minimumf (broadcastInDim S16x100000 ![] bcast_S_S16x100000 (id (constant S_ .f32 0x41200000#32))) (maximumf (broadcastInDim S16x100000 ![] bcast_S_S16x100000 (id (constant S_ .f32 0xC1200000#32))) (addf (addf a3 (subf a0 a1)) g))) (broadcastInDim S16x100000 ![0, 1] bcast_S1x100000_S16x100000_0_1 (broadcastInDim S1x100000 ![1] bcast_S100000_S1x100000_1 (select (cmpf .une (subf a7 (broadcastInDim S100000 ![] bcast_S_S100000 (constant S_ .f32 0x00000000#32))) (subf a7 (broadcastInDim S100000 ![] bcast_S_S100000 (constant S_ .f32 0x00000000#32)))) (addf a7 (broadcastInDim S100000 ![] bcast_S_S100000 (constant S_ .f32 0x00000000#32))) (addf (maximumf a7 (broadcastInDim S100000 ![] bcast_S_S100000 (constant S_ .f32 0x00000000#32))) (Host.log1p (Host.exp (Host.negf (Host.absf (subf a7 (broadcastInDim S100000 ![] bcast_S_S100000 (constant S_ .f32 0x00000000#32)))))))))))) (broadcastInDim S16x100000 ![] bcast_S_S16x100000 (constant S_ .f32 0x00000000#32))) (ix2 b n)
      = Cert.KernelIdeal.Update.neuron (F := Ideal) (a0 (ix2 b n)) (a1 (ix2 b n)) (a3 (ix2 b n)) (g (ix2 b n)) (a7 (ix1 n)) := by
  have hT : (broadcastInDim S16x100000 ![0, 1] bcast_S1x100000_S16x100000_0_1 (broadcastInDim S1x100000 ![1] bcast_S100000_S1x100000_1 (select (cmpf .une (subf a7 (broadcastInDim S100000 ![] bcast_S_S100000 (constant S_ .f32 0x00000000#32))) (subf a7 (broadcastInDim S100000 ![] bcast_S_S100000 (constant S_ .f32 0x00000000#32)))) (addf a7 (broadcastInDim S100000 ![] bcast_S_S100000 (constant S_ .f32 0x00000000#32))) (addf (maximumf a7 (broadcastInDim S100000 ![] bcast_S_S100000 (constant S_ .f32 0x00000000#32))) (Host.log1p (Host.exp (Host.negf (Host.absf (subf a7 (broadcastInDim S100000 ![] bcast_S_S100000 (constant S_ .f32 0x00000000#32))))))))))) (ix2 b n) = (select (cmpf .une (subf a7 (broadcastInDim S100000 ![] bcast_S_S100000 (constant S_ .f32 0x00000000#32))) (subf a7 (broadcastInDim S100000 ![] bcast_S_S100000 (constant S_ .f32 0x00000000#32)))) (addf a7 (broadcastInDim S100000 ![] bcast_S_S100000 (constant S_ .f32 0x00000000#32))) (addf (maximumf a7 (broadcastInDim S100000 ![] bcast_S_S100000 (constant S_ .f32 0x00000000#32))) (Host.log1p (Host.exp (Host.negf (Host.absf (subf a7 (broadcastInDim S100000 ![] bcast_S_S100000 (constant S_ .f32 0x00000000#32))))))))) (ix1 n) := by
    refine (broadcastInDim_apply _ _ _ (ix2 b n) (ix2 (0 : Fin 1) n) fun a => ?_).trans ?_
    · match a with
      | ⟨0, _⟩ => show (0 : ℕ) = if (1 : ℕ) = 1 then 0 else _; rw [if_pos rfl]
      | ⟨1, _⟩ => show n.val = if (100000 : ℕ) = 1 then 0 else n.val; rw [if_neg (by decide)]
    · refine broadcastInDim_apply _ _ _ (ix2 (0 : Fin 1) n) (ix1 n) fun a => ?_
      match a with
      | ⟨0, _⟩ => show n.val = if (100000 : ℕ) = 1 then 0 else n.val; rw [if_neg (by decide)]
  show FloatOps.maximumf
      (FloatOps.subf
        (FloatOps.minimumf (FloatOps.ofBits .f32 0x41200000#32)
          (FloatOps.maximumf (FloatOps.ofBits .f32 0xC1200000#32)
            (FloatOps.addf (FloatOps.addf (a3 (ix2 b n)) (FloatOps.subf (a0 (ix2 b n)) (a1 (ix2 b n)))) (g (ix2 b n)))))
        ((broadcastInDim S16x100000 ![0, 1] bcast_S1x100000_S16x100000_0_1 (broadcastInDim S1x100000 ![1] bcast_S100000_S1x100000_1 (select (cmpf .une (subf a7 (broadcastInDim S100000 ![] bcast_S_S100000 (constant S_ .f32 0x00000000#32))) (subf a7 (broadcastInDim S100000 ![] bcast_S_S100000 (constant S_ .f32 0x00000000#32)))) (addf a7 (broadcastInDim S100000 ![] bcast_S_S100000 (constant S_ .f32 0x00000000#32))) (addf (maximumf a7 (broadcastInDim S100000 ![] bcast_S_S100000 (constant S_ .f32 0x00000000#32))) (Host.log1p (Host.exp (Host.negf (Host.absf (subf a7 (broadcastInDim S100000 ![] bcast_S_S100000 (constant S_ .f32 0x00000000#32))))))))))) (ix2 b n)))
      (FloatOps.ofBits .f32 0x00000000#32) = _
  rw [hT]
  unfold Cert.KernelIdeal.Update.neuron
  rw [← softplus_eq]
  rfl

/-- THE BRIDGE: the reference's result term is the kernel program's result, as functions of the same arguments. -/
theorem bridge (a0 a1 a2 a3 : FVec Ideal S16x100000 .f32) (a4 a5 : IVec S3200000 32) (a6 : FVec Ideal S3200000 .f32)
    (a7 : FVec Ideal S100000 .f32) :
    maximumf (subf (minimumf (broadcastInDim S16x100000 ![] bcast_S_S16x100000 (id (constant S_ .f32 0x41200000#32))) (maximumf (broadcastInDim S16x100000 ![] bcast_S_S16x100000 (id (constant S_ .f32 0xC1200000#32))) (addf (addf a3 (subf a0 a1)) (Host.scatterAdd scatter_S16x100000_S3200000x1_S16x3200000_0_1_1_1 (broadcastInDim S16x100000 ![] bcast_S_S16x100000 (constant S_ .f32 0x00000000#32)) (broadcastInDim S3200000x1 ![0] bcast_S3200000_S3200000x1_0 (select (cmpi .slt a5 (broadcastInDim S3200000 ![] bcast_S_S3200000 (constantI S_ 32 0#32))) (addi a5 (broadcastInDim S3200000 ![] bcast_S_S3200000 (constantI S_ 32 100000#32))) a5)) (mulf (mulf (Host.gather gather_S16x100000_S3200000x1_S16x3200000_0_1_n_n_1_1_161 a2 (broadcastInDim S3200000x1 ![0] bcast_S3200000_S3200000x1_0 (select (cmpi .slt a4 (broadcastInDim S3200000 ![] bcast_S_S3200000 (constantI S_ 32 0#32))) (addi a4 (broadcastInDim S3200000 ![] bcast_S_S3200000 (constantI S_ 32 100000#32))) a4))) (broadcastInDim S16x3200000 ![0, 1] bcast_S1x3200000_S16x3200000_0_1 (broadcastInDim S1x3200000 ![1] bcast_S3200000_S1x3200000_1 a6))) (id (select (cmpf .oge (Host.gather gather_S16x100000_S3200000x1_S16x3200000_0_1_n_n_1_1_161 a2 (broadcastInDim S3200000x1 ![0] bcast_S3200000_S3200000x1_0 (select (cmpi .slt a4 (broadcastInDim S3200000 ![] bcast_S_S3200000 (constantI S_ 32 0#32))) (addi a4 (broadcastInDim S3200000 ![] bcast_S_S3200000 (constantI S_ 32 100000#32))) a4))) (Host.gather gather_S16x100000_S3200000x1_S16x3200000_0_1_n_n_1_1_161 a3 (broadcastInDim S3200000x1 ![0] bcast_S3200000_S3200000x1_0 (select (cmpi .slt a5 (broadcastInDim S3200000 ![] bcast_S_S3200000 (constantI S_ 32 0#32))) (addi a5 (broadcastInDim S3200000 ![] bcast_S_S3200000 (constantI S_ 32 100000#32))) a5)))) (broadcastInDim S16x3200000 ![] bcast_S_S16x3200000 (constant S_ .f32 0x3F800000#32)) (broadcastInDim S16x3200000 ![] bcast_S_S16x3200000 (constant S_ .f32 0xBF800000#32))))))))) (broadcastInDim S16x100000 ![0, 1] bcast_S1x100000_S16x100000_0_1 (broadcastInDim S1x100000 ![1] bcast_S100000_S1x100000_1 (select (cmpf .une (subf a7 (broadcastInDim S100000 ![] bcast_S_S100000 (constant S_ .f32 0x00000000#32))) (subf a7 (broadcastInDim S100000 ![] bcast_S_S100000 (constant S_ .f32 0x00000000#32)))) (addf a7 (broadcastInDim S100000 ![] bcast_S_S100000 (constant S_ .f32 0x00000000#32))) (addf (maximumf a7 (broadcastInDim S100000 ![] bcast_S_S100000 (constant S_ .f32 0x00000000#32))) (Host.log1p (Host.exp (Host.negf (Host.absf (subf a7 (broadcastInDim S100000 ![] bcast_S_S100000 (constant S_ .f32 0x00000000#32)))))))))))) (broadcastInDim S16x100000 ![] bcast_S_S16x100000 (constant S_ .f32 0x00000000#32))
      = Cert.KernelIdeal.Spec.result (F := Ideal) a0 a1 a2 a3 a4 a5 a6 a7 := by
  have hgap : (Host.scatterAdd scatter_S16x100000_S3200000x1_S16x3200000_0_1_1_1 (broadcastInDim S16x100000 ![] bcast_S_S16x100000 (constant S_ .f32 0x00000000#32)) (broadcastInDim S3200000x1 ![0] bcast_S3200000_S3200000x1_0 (select (cmpi .slt a5 (broadcastInDim S3200000 ![] bcast_S_S3200000 (constantI S_ 32 0#32))) (addi a5 (broadcastInDim S3200000 ![] bcast_S_S3200000 (constantI S_ 32 100000#32))) a5)) (mulf (mulf (Host.gather gather_S16x100000_S3200000x1_S16x3200000_0_1_n_n_1_1_161 a2 (broadcastInDim S3200000x1 ![0] bcast_S3200000_S3200000x1_0 (select (cmpi .slt a4 (broadcastInDim S3200000 ![] bcast_S_S3200000 (constantI S_ 32 0#32))) (addi a4 (broadcastInDim S3200000 ![] bcast_S_S3200000 (constantI S_ 32 100000#32))) a4))) (broadcastInDim S16x3200000 ![0, 1] bcast_S1x3200000_S16x3200000_0_1 (broadcastInDim S1x3200000 ![1] bcast_S3200000_S1x3200000_1 a6))) (id (select (cmpf .oge (Host.gather gather_S16x100000_S3200000x1_S16x3200000_0_1_n_n_1_1_161 a2 (broadcastInDim S3200000x1 ![0] bcast_S3200000_S3200000x1_0 (select (cmpi .slt a4 (broadcastInDim S3200000 ![] bcast_S_S3200000 (constantI S_ 32 0#32))) (addi a4 (broadcastInDim S3200000 ![] bcast_S_S3200000 (constantI S_ 32 100000#32))) a4))) (Host.gather gather_S16x100000_S3200000x1_S16x3200000_0_1_n_n_1_1_161 a3 (broadcastInDim S3200000x1 ![0] bcast_S3200000_S3200000x1_0 (select (cmpi .slt a5 (broadcastInDim S3200000 ![] bcast_S_S3200000 (constantI S_ 32 0#32))) (addi a5 (broadcastInDim S3200000 ![] bcast_S_S3200000 (constantI S_ 32 100000#32))) a5)))) (broadcastInDim S16x3200000 ![] bcast_S_S16x3200000 (constant S_ .f32 0x3F800000#32)) (broadcastInDim S16x3200000 ![] bcast_S_S16x3200000 (constant S_ .f32 0xBF800000#32)))))) = Cert.KernelIdeal.Spec.gap (F := Ideal) a2 a3 a4 a5 a6 := by
    rw [contrib_eq]; rfl
  funext i
  obtain ⟨b, n, rfl⟩ : ∃ (b : Fin 16) (n : Fin 100000), i = ix2 b n := ⟨i 0, i 1, eq_ix2 i⟩
  rw [Cert.KernelIdeal.Spec.result_apply, ← hgap]
  exact assemble a0 a1 a3 _ a7 b n

end Cert.ReferenceIdeal.Bridge

end
-- ==== Proof.lean ====
/-
  A gap-junction neuron update over 16 batch rows, N = 100000 neurons and E = 3200000 edges:
      oj = o_pre[:, src],  en = state[:, dst],   contrib = (oj · w) · (1 if en ≤ oj else -1),
      gap = scatter-add of contrib at dst,       S = clip(state + (ex - inh) + gap, -10, 10),
      out = max(S - softplus(threshold), 0).
  The kernel program gathers and scatters on the host and runs two launches: the contributions over the edges in
  100 blocks, and the neuron update over the neurons padded to 100096 columns in 17 blocks, cut back to N at the
  end.  The reference does everything on the host.  On the extended reals both are the same expression, entry by
  entry: tiling, padding-then-slicing and the way the weight and threshold lists are broadcast change nothing, the
  softplus guard `d ≠ d` is the same test in its ordered and unordered forms, and `0 - a = -a`.  The shared
  gathers and the shared scatter are never opened.  No finiteness is needed, so the precondition is not used.

  `frame` for the two kernel programs is their generated run; for the reference it is its run with the result
  dropped.  `preserves` is trivial: the idealization rewrote nothing.  `algebraic` puts the kernel program's run
  with its result (Proof/KernelValue.lean) beside the reference's run and joins the two result terms by
  Proof/Bridge.lean.
-/
import proofs.«120688_j50070728737564_1_alg».proof.Defs
import proofs.«120688_j50070728737564_1_alg».proof.Proof.Gen.Kernel
import proofs.«120688_j50070728737564_1_alg».proof.Proof.Gen.Kernel.Frame
import proofs.«120688_j50070728737564_1_alg».proof.Proof.Gen.KernelIdeal
import proofs.«120688_j50070728737564_1_alg».proof.Proof.Gen.KernelIdeal.Frame
import proofs.«120688_j50070728737564_1_alg».proof.Proof.Gen.ReferenceIdeal
import proofs.«120688_j50070728737564_1_alg».proof.Proof.Gen.ReferenceIdeal.Run
import proofs.«120688_j50070728737564_1_alg».proof.Proof.Gen.Pre_finite_inputs
import proofs.«120688_j50070728737564_1_alg».proof.Proof.KernelValue
import proofs.«120688_j50070728737564_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end, the kernel program's result buffer at `result` of the
    arguments and the reference's at its own term of the same arguments: one function. -/
theorem algebraic : Cert.algebraic_KernelIdeal_ReferenceIdeal := by
  intro m ρ m' ρ' _ hagree
  refine ⟨_, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, -⟩ := hagree c
  rw [h0, h1, h2, h3, h4, h5, h6, h7]
  exact Cert.ReferenceIdeal.Bridge.bridge _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
